-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v74)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v74) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S10000x128 : Shape := ⟨2, ![10000, 128]⟩
abbrev S1600000x128 : Shape := ⟨2, ![1600000, 128]⟩
abbrev S100000x1 : Shape := ⟨2, ![100000, 1]⟩
abbrev S1x128 : Shape := ⟨2, ![1, 128]⟩
abbrev S10000x1 : Shape := ⟨2, ![10000, 1]⟩

abbrev nBuf : Space → Nat
  | .hbm => 98
  | .vmem => 28
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .f32⟩
  | .hbm, ⟨11, _⟩ => ⟨S1600000, .f32⟩
  | .hbm, ⟨12, _⟩ => ⟨S_, .f32⟩
  | .hbm, ⟨13, _⟩ => ⟨S100000, .f32⟩
  | .hbm, ⟨14, _⟩ => ⟨S1600000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S100000, .f32⟩
  | .hbm, ⟨20, _⟩ => ⟨S100000x128, .f32⟩
  | .hbm, ⟨21, _⟩ => ⟨S_, .i32⟩
  | .hbm, ⟨22, _⟩ => ⟨S1600000, .i32⟩
  | .hbm, ⟨23, _⟩ => ⟨S1600000, .i1⟩
  | .hbm, ⟨24, _⟩ => ⟨S_, .i32⟩
  | .hbm, ⟨25, _⟩ => ⟨S1600000, .i32⟩
  | .hbm, ⟨26, _⟩ => ⟨S1600000, .i32⟩
  | .hbm, ⟨27, _⟩ => ⟨S1600000, .i32⟩
  | .hbm, ⟨28, _⟩ => ⟨S1600000x1, .i32⟩
  | .hbm, ⟨29, _⟩ => ⟨S1600000, .f32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000, .f32⟩
  | .hbm, ⟨39, _⟩ => ⟨S1600000, .f32⟩
  | .hbm, ⟨40, _⟩ => ⟨S_, .i32⟩
  | .hbm, ⟨41, _⟩ => ⟨S1600000, .i32⟩
  | .hbm, ⟨42, _⟩ => ⟨S1600000, .i1⟩
  | .hbm, ⟨43, _⟩ => ⟨S_, .i32⟩
  | .hbm, ⟨44, _⟩ => ⟨S1600000, .i32⟩
  | .hbm, ⟨45, _⟩ => ⟨S1600000, .i32⟩
  | .hbm, ⟨46, _⟩ => ⟨S1600000, .i32⟩
  | .hbm, ⟨47, _⟩ => ⟨S1600000x1, .i32⟩
  | .hbm, ⟨48, _⟩ => ⟨S1600000x128, .f32⟩
  | .hbm, ⟨49, _⟩ => ⟨S1600000x1, .f32⟩
  | .hbm, ⟨50, _⟩ => ⟨S1600000x128, .f32⟩
  | .hbm, ⟨51, _⟩ => ⟨S1600000x128, .f32⟩
  | .hbm, ⟨52, _⟩ => ⟨S_, .f32⟩
  | .hbm, ⟨53, _⟩ => ⟨S100000x128, .f32⟩
  | .hbm, ⟨54, _⟩ => ⟨S1600000x1, .i32⟩
  | .hbm, ⟨55, _⟩ => ⟨S100000x128, .f32⟩
  | .hbm, ⟨56, _⟩ => ⟨S100000x1, .f32⟩
  | .hbm, ⟨57, _⟩ => ⟨S1x128, .f32⟩
  | .hbm, ⟨58, _⟩ => ⟨S100000x128, .f32⟩
  | .hbm, ⟨59, _⟩ => ⟨S100000x128, .f32⟩
  | .hbm, ⟨60, _⟩ => ⟨S_, .i32⟩
  | .hbm, ⟨61, _⟩ => ⟨S1600000, .i32⟩
  | .hbm, ⟨62, _⟩ => ⟨S1600000, .i1⟩
  | .hbm, ⟨63, _⟩ => ⟨S_, .i32⟩
  | .hbm, ⟨64, _⟩ => ⟨S1600000, .i32⟩
  | .hbm, ⟨65, _⟩ => ⟨S1600000, .i32⟩
  | .hbm, ⟨66, _⟩ => ⟨S1600000, .i32⟩
  | .hbm, ⟨67, _⟩ => ⟨S1600000x1, .i32⟩
  | .hbm, ⟨68, _⟩ => ⟨S1600000, .f32⟩
  | .hbm, ⟨69, _⟩ => ⟨S_, .i32⟩
  | .hbm, ⟨70, _⟩ => ⟨S1600000, .i32⟩
  | .hbm, ⟨71, _⟩ => ⟨S1600000, .i1⟩
  | .hbm, ⟨72, _⟩ => ⟨S_, .i32⟩
  | .hbm, ⟨73, _⟩ => ⟨S1600000, .i32⟩
  | .hbm, ⟨74, _⟩ => ⟨S1600000, .i32⟩
  | .hbm, ⟨75, _⟩ => ⟨S1600000, .i32⟩
  | .hbm, ⟨76, _⟩ => ⟨S1600000x1, .i32⟩
  | .hbm, ⟨77, _⟩ => ⟨S1600000, .f32⟩
  | .hbm, ⟨78, _⟩ => ⟨S1600000, .f32⟩
  | .hbm, ⟨79, _⟩ => ⟨S_, .i32⟩
  | .hbm, ⟨80, _⟩ => ⟨S1600000, .i32⟩
  | .hbm, ⟨81, _⟩ => ⟨S1600000, .i1⟩
  | .hbm, ⟨82, _⟩ => ⟨S_, .i32⟩
  | .hbm, ⟨83, _⟩ => ⟨S1600000, .i32⟩
  | .hbm, ⟨84, _⟩ => ⟨S1600000, .i32⟩
  | .hbm, ⟨85, _⟩ => ⟨S1600000, .i32⟩
  | .hbm, ⟨86, _⟩ => ⟨S1600000x1, .i32⟩
  | .hbm, ⟨87, _⟩ => ⟨S1600000x128, .f32⟩
  | .hbm, ⟨88, _⟩ => ⟨S1600000x1, .f32⟩
  | .hbm, ⟨89, _⟩ => ⟨S1600000x128, .f32⟩
  | .hbm, ⟨90, _⟩ => ⟨S1600000x128, .f32⟩
  | .hbm, ⟨91, _⟩ => ⟨S_, .f32⟩
  | .hbm, ⟨92, _⟩ => ⟨S100000x128, .f32⟩
  | .hbm, ⟨93, _⟩ => ⟨S1600000x1, .i32⟩
  | .hbm, ⟨94, _⟩ => ⟨S100000x128, .f32⟩
  | .hbm, ⟨95, _⟩ => ⟨S100000x1, .f32⟩
  | .hbm, ⟨96, _⟩ => ⟨S1x128, .f32⟩
  | .hbm, ⟨97, _⟩ => ⟨S100000x128, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S10000x128, .f32⟩
  | .local _ .vmem, ⟨8, _⟩ => ⟨S10000x128, .f32⟩
  | .local _ .vmem, ⟨9, _⟩ => ⟨S10000x1, .f32⟩
  | .local _ .vmem, ⟨10, _⟩ => ⟨S10000x1, .f32⟩
  | .local _ .vmem, ⟨11, _⟩ => ⟨S1x128, .f32⟩
  | .local _ .vmem, ⟨12, _⟩ => ⟨S10000x128, .f32⟩
  | .local _ .vmem, ⟨13, _⟩ => ⟨S10000x128, .f32⟩
  | .local _ .vmem, ⟨14, _⟩ => ⟨S10000x128, .f32⟩
  | .local _ .vmem, ⟨15, _⟩ => ⟨S10000x128, .f32⟩
  | .local _ .vmem, ⟨16, _⟩ => ⟨S128x128, .f32⟩
  | .local _ .vmem, ⟨17, _⟩ => ⟨S10000x128, .f32⟩
  | .local _ .vmem, ⟨18, _⟩ => ⟨S10000x128, .f32⟩
  | .local _ .vmem, ⟨19, _⟩ => ⟨S10000x128, .f32⟩
  | .local _ .vmem, ⟨20, _⟩ => ⟨S10000x128, .f32⟩
  | .local _ .vmem, ⟨21, _⟩ => ⟨S10000x128, .f32⟩
  | .local _ .vmem, ⟨22, _⟩ => ⟨S10000x128, .f32⟩
  | .local _ .vmem, ⟨23, _⟩ => ⟨S10000x1, .f32⟩
  | .local _ .vmem, ⟨24, _⟩ => ⟨S10000x1, .f32⟩
  | .local _ .vmem, ⟨25, _⟩ => ⟨S1x128, .f32⟩
  | .local _ .vmem, ⟨26, _⟩ => ⟨S10000x128, .f32⟩
  | .local _ .vmem, ⟨27, _⟩ => ⟨S10000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_v27 : Ref sig .tc := ⟨.hbm, 41, rfl⟩
abbrev main_v28 : Ref sig .tc := ⟨.hbm, 42, rfl⟩
abbrev main_c_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_c_8 : Ref sig .tc := ⟨.hbm, 60, rfl⟩
abbrev main_v44 : Ref sig .tc := ⟨.hbm, 61, rfl⟩
abbrev main_v45 : Ref sig .tc := ⟨.hbm, 62, rfl⟩
abbrev main_c_9 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_c_10 : Ref sig .tc := ⟨.hbm, 69, rfl⟩
abbrev main_v51 : Ref sig .tc := ⟨.hbm, 70, rfl⟩
abbrev main_v52 : Ref sig .tc := ⟨.hbm, 71, rfl⟩
abbrev main_c_11 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_c_12 : Ref sig .tc := ⟨.hbm, 79, rfl⟩
abbrev main_v59 : Ref sig .tc := ⟨.hbm, 80, rfl⟩
abbrev main_v60 : Ref sig .tc := ⟨.hbm, 81, rfl⟩
abbrev main_c_13 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_cst_14 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S10000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S10000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S10000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S100000_S100000x1 : S100000.ShapeCasts S100000x1
  shapeCasts_S128_S1x128 : S128.ShapeCasts S1x128
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  shapeCasts_S10000x128_S10000x128 : S10000x128.ShapeCasts S10000x128
  broadcasts_S10000x1_S10000x128 : S10000x1.Broadcasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  scatter_S100000_S1600000x1_S1600000_n_0_0_1_wf : ScatterDims.WF S100000 S1600000x1 S1600000 [] [0] [0] 1
  dot_S10000x128_S128x128_S10000x128_1_0_0_1_n_n_wf : DotDims.WF S10000x128 S128x128 S10000x128 [1] [0] [0] [1] [] []
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S100000x128.size a
  hwx1_1 : ∀ i : grid1.Coords, EltTy.bits .f32 = 32 ∨ (Rect.block (s := S100000x128) S10000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x1.size a ≤ S100000x1.size a
  hwx1_2 : ∀ i : grid1.Coords, EltTy.bits .f32 = 32 ∨ (Rect.block (s := S100000x1) S10000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x128.size a ≤ S100000x128.size a
  hwx1_4 : ∀ i : grid1.Coords, EltTy.bits .f32 = 32 ∨ (Rect.block (s := S100000x128) S10000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x128.size a ≤ S100000x128.size a
  hwx2_2 : ∀ i : grid2.Coords, EltTy.bits .f32 = 32 ∨ (Rect.block (s := S100000x128) S10000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S100000x128.size a
  hwx3_0 : ∀ i : grid3.Coords, EltTy.bits .f32 = 32 ∨ (Rect.block (s := S100000x128) S10000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x128.size a ≤ S100000x128.size a
  hwx3_1 : ∀ i : grid3.Coords, EltTy.bits .f32 = 32 ∨ (Rect.block (s := S100000x128) S10000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x1.size a ≤ S100000x1.size a
  hwx3_2 : ∀ i : grid3.Coords, EltTy.bits .f32 = 32 ∨ (Rect.block (s := S100000x1) S10000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S10000x128.size a ≤ S100000x128.size a
  hwx3_4 : ∀ i : grid3.Coords, EltTy.bits .f32 = 32 ∨ (Rect.block (s := S100000x128) S10000x128.size (cc3_transform_4 i) (hinb3_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v39) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S10000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v40) S10000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v41) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v42) S10000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v42) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v43) S10000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v71) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v43) S10000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v72) S10000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v73) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v74) S10000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩

abbrev nBuf : Space → Nat
  | .hbm => 114
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .f32⟩
  | .hbm, ⟨11, _⟩ => ⟨S1600000, .f32⟩
  | .hbm, ⟨12, _⟩ => ⟨S_, .f32⟩
  | .hbm, ⟨13, _⟩ => ⟨S100000, .f32⟩
  | .hbm, ⟨14, _⟩ => ⟨S1600000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S100000, .f32⟩
  | .hbm, ⟨20, _⟩ => ⟨S100000x128, .f32⟩
  | .hbm, ⟨21, _⟩ => ⟨S_, .i32⟩
  | .hbm, ⟨22, _⟩ => ⟨S1600000, .i32⟩
  | .hbm, ⟨23, _⟩ => ⟨S1600000, .i1⟩
  | .hbm, ⟨24, _⟩ => ⟨S_, .i32⟩
  | .hbm, ⟨25, _⟩ => ⟨S1600000, .i32⟩
  | .hbm, ⟨26, _⟩ => ⟨S1600000, .i32⟩
  | .hbm, ⟨27, _⟩ => ⟨S1600000, .i32⟩
  | .hbm, ⟨28, _⟩ => ⟨S1600000x1, .i32⟩
  | .hbm, ⟨29, _⟩ => ⟨S1600000, .f32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000, .f32⟩
  | .hbm, ⟨39, _⟩ => ⟨S1600000, .f32⟩
  | .hbm, ⟨40, _⟩ => ⟨S_, .i32⟩
  | .hbm, ⟨41, _⟩ => ⟨S1600000, .i32⟩
  | .hbm, ⟨42, _⟩ => ⟨S1600000, .i1⟩
  | .hbm, ⟨43, _⟩ => ⟨S_, .i32⟩
  | .hbm, ⟨44, _⟩ => ⟨S1600000, .i32⟩
  | .hbm, ⟨45, _⟩ => ⟨S1600000, .i32⟩
  | .hbm, ⟨46, _⟩ => ⟨S1600000, .i32⟩
  | .hbm, ⟨47, _⟩ => ⟨S1600000x1, .i32⟩
  | .hbm, ⟨48, _⟩ => ⟨S1600000x128, .f32⟩
  | .hbm, ⟨49, _⟩ => ⟨S1600000x1, .f32⟩
  | .hbm, ⟨50, _⟩ => ⟨S1600000x128, .f32⟩
  | .hbm, ⟨51, _⟩ => ⟨S1600000x128, .f32⟩
  | .hbm, ⟨52, _⟩ => ⟨S_, .f32⟩
  | .hbm, ⟨53, _⟩ => ⟨S100000x128, .f32⟩
  | .hbm, ⟨54, _⟩ => ⟨S1600000x1, .i32⟩
  | .hbm, ⟨55, _⟩ => ⟨S100000x128, .f32⟩
  | .hbm, ⟨56, _⟩ => ⟨S100000, .f32⟩
  | .hbm, ⟨57, _⟩ => ⟨S100000x1, .f32⟩
  | .hbm, ⟨58, _⟩ => ⟨S100000x128, .f32⟩
  | .hbm, ⟨59, _⟩ => ⟨S100000x128, .f32⟩
  | .hbm, ⟨60, _⟩ => ⟨S100000x128, .f32⟩
  | .hbm, ⟨61, _⟩ => ⟨S1x128, .f32⟩
  | .hbm, ⟨62, _⟩ => ⟨S100000x128, .f32⟩
  | .hbm, ⟨63, _⟩ => ⟨S100000x128, .f32⟩
  | .hbm, ⟨64, _⟩ => ⟨S_, .f32⟩
  | .hbm, ⟨65, _⟩ => ⟨S100000x128, .f32⟩
  | .hbm, ⟨66, _⟩ => ⟨S100000x128, .f32⟩
  | .hbm, ⟨67, _⟩ => ⟨S100000x128, .f32⟩
  | .hbm, ⟨68, _⟩ => ⟨S_, .i32⟩
  | .hbm, ⟨69, _⟩ => ⟨S1600000, .i32⟩
  | .hbm, ⟨70, _⟩ => ⟨S1600000, .i1⟩
  | .hbm, ⟨71, _⟩ => ⟨S_, .i32⟩
  | .hbm, ⟨72, _⟩ => ⟨S1600000, .i32⟩
  | .hbm, ⟨73, _⟩ => ⟨S1600000, .i32⟩
  | .hbm, ⟨74, _⟩ => ⟨S1600000, .i32⟩
  | .hbm, ⟨75, _⟩ => ⟨S1600000x1, .i32⟩
  | .hbm, ⟨76, _⟩ => ⟨S1600000, .f32⟩
  | .hbm, ⟨77, _⟩ => ⟨S_, .i32⟩
  | .hbm, ⟨78, _⟩ => ⟨S1600000, .i32⟩
  | .hbm, ⟨79, _⟩ => ⟨S1600000, .i1⟩
  | .hbm, ⟨80, _⟩ => ⟨S_, .i32⟩
  | .hbm, ⟨81, _⟩ => ⟨S1600000, .i32⟩
  | .hbm, ⟨82, _⟩ => ⟨S1600000, .i32⟩
  | .hbm, ⟨83, _⟩ => ⟨S1600000, .i32⟩
  | .hbm, ⟨84, _⟩ => ⟨S1600000x1, .i32⟩
  | .hbm, ⟨85, _⟩ => ⟨S1600000, .f32⟩
  | .hbm, ⟨86, _⟩ => ⟨S1600000, .f32⟩
  | .hbm, ⟨87, _⟩ => ⟨S_, .i32⟩
  | .hbm, ⟨88, _⟩ => ⟨S1600000, .i32⟩
  | .hbm, ⟨89, _⟩ => ⟨S1600000, .i1⟩
  | .hbm, ⟨90, _⟩ => ⟨S_, .i32⟩
  | .hbm, ⟨91, _⟩ => ⟨S1600000, .i32⟩
  | .hbm, ⟨92, _⟩ => ⟨S1600000, .i32⟩
  | .hbm, ⟨93, _⟩ => ⟨S1600000, .i32⟩
  | .hbm, ⟨94, _⟩ => ⟨S1600000x1, .i32⟩
  | .hbm, ⟨95, _⟩ => ⟨S1600000x128, .f32⟩
  | .hbm, ⟨96, _⟩ => ⟨S1600000x1, .f32⟩
  | .hbm, ⟨97, _⟩ => ⟨S1600000x128, .f32⟩
  | .hbm, ⟨98, _⟩ => ⟨S1600000x128, .f32⟩
  | .hbm, ⟨99, _⟩ => ⟨S_, .f32⟩
  | .hbm, ⟨100, _⟩ => ⟨S100000x128, .f32⟩
  | .hbm, ⟨101, _⟩ => ⟨S1600000x1, .i32⟩
  | .hbm, ⟨102, _⟩ => ⟨S100000x128, .f32⟩
  | .hbm, ⟨103, _⟩ => ⟨S100000, .f32⟩
  | .hbm, ⟨104, _⟩ => ⟨S100000x1, .f32⟩
  | .hbm, ⟨105, _⟩ => ⟨S100000x128, .f32⟩
  | .hbm, ⟨106, _⟩ => ⟨S100000x128, .f32⟩
  | .hbm, ⟨107, _⟩ => ⟨S100000x128, .f32⟩
  | .hbm, ⟨108, _⟩ => ⟨S1x128, .f32⟩
  | .hbm, ⟨109, _⟩ => ⟨S100000x128, .f32⟩
  | .hbm, ⟨110, _⟩ => ⟨S100000x128, .f32⟩
  | .hbm, ⟨111, _⟩ => ⟨S_, .f32⟩
  | .hbm, ⟨112, _⟩ => ⟨S100000x128, .f32⟩
  | .hbm, ⟨113, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_v27 : Ref sig .tc := ⟨.hbm, 41, rfl⟩
abbrev main_v28 : Ref sig .tc := ⟨.hbm, 42, rfl⟩
abbrev main_c_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_call0_cst : Ref sig .tc := ⟨.hbm, 64, rfl⟩
abbrev main_call0_v0 : Ref sig .tc := ⟨.hbm, 65, rfl⟩
abbrev main_v48 : Ref sig .tc := ⟨.hbm, 66, rfl⟩
abbrev main_v49 : Ref sig .tc := ⟨.hbm, 67, rfl⟩
abbrev main_c_8 : Ref sig .tc := ⟨.hbm, 68, rfl⟩
abbrev main_v50 : Ref sig .tc := ⟨.hbm, 69, rfl⟩
abbrev main_v51 : Ref sig .tc := ⟨.hbm, 70, rfl⟩
abbrev main_c_9 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_c_10 : Ref sig .tc := ⟨.hbm, 77, rfl⟩
abbrev main_v57 : Ref sig .tc := ⟨.hbm, 78, rfl⟩
abbrev main_v58 : Ref sig .tc := ⟨.hbm, 79, rfl⟩
abbrev main_c_11 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_c_12 : Ref sig .tc := ⟨.hbm, 87, rfl⟩
abbrev main_v65 : Ref sig .tc := ⟨.hbm, 88, rfl⟩
abbrev main_v66 : Ref sig .tc := ⟨.hbm, 89, rfl⟩
abbrev main_c_13 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_cst_14 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_call1_cst : Ref sig .tc := ⟨.hbm, 111, rfl⟩
abbrev main_call1_v0 : Ref sig .tc := ⟨.hbm, 112, rfl⟩
abbrev main_v86 : Ref sig .tc := ⟨.hbm, 113, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

class Facts : Prop extends Facts₀ where

variable [Facts]
-- ==== Proof.KernelRun.lean ====
import proofs.«150366_j21397527068858_1_alg».proof.Proof.Gen.KernelIdeal.Frame

/-!
# The idealized kernel's run, with every buffer named

The kernel program is four grid launches (a row-blocked matrix product, a row-blocked pointwise epilogue, and the
same pair again for the second layer) among three stretches of host operations.  Its execution from any launch
memory terminates, and at the end every unscoped buffer of a core holds what the fold of the segments leaves there:
a stretch of host operations applies its operations in order, a launch replaces its output array by the blocks its
grid points write back.  The statement below keeps that whole final valuation (the fold's last stage), so that the
result buffer can be read off it; the argument buffers are read off it as well.
-/

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates without a fault, and in the final memory every
    unscoped buffer of every core holds the last stage of the fold through the program's segments. -/
theorem run_fold : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h => h)

/-- The same run, read at the result buffer and at the six argument buffers: the result holds the fold's last
    stage there, each argument what it held at launch. -/
theorem run_result : θ_run defs (onTc (τ := τ) (main (F := F))) ⟨m, fun _ => 0, ρ⟩ (fun r => ∀ c : Dev nD,
      r.2.mem ((c.tc : Thread nD τ).loc main_v74) = W7 m ρ c (Proc.devRef .tc main_v74)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
      ⟨h c _ (mem_uc main_v74 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)
    (run_fold m ρ)

end Cert.KernelIdeal.Whole

end
-- ==== Proof.Entry.lean ====
import proofs.«150366_j21397527068858_1_alg».proof.Proof.Gen.KernelIdeal.Skeleton
import Idealize.ShloMosaic.Lib.ValueIdx
import Idealize.ShloMosaic.Lib.Pipeline.Value
import Idealize.ShloMosaic.PureOps.Ideal.Laws

/-!
# What one grid point computes, entry by entry

Both kinds of launch work on a block of 10000 consecutive rows.

* The projection launch multiplies the block of rows `x` (10000 × 128) by the whole weight matrix `w`
  (128 × 128) into a zero accumulator.  Over the extended reals its entry `(p, q)` is the plain sum
  `∑ k, x (p, k) · w (k, q)`.
* The epilogue launch takes the block of aggregated messages `a`, the block of projected features `h`, the
  column `n` (10000 × 1) of the rows' normalisers and the bias row `b` (1 × 128), and stores
  `max (a + h · (n · n) + b) 0`, where the column is repeated along the 128 lanes and the bias row along the rows.
  Its entry `(p, q)` is `max (a (p, q) + h (p, q) · (n (p, 0) · n (p, 0)) + b (0, q)) 0`.

The second layer's launches compute the same two functions (their printed bodies differ only by identity casts).
-/

noncomputable section

namespace Cert.KernelIdeal.Entry

open Cert.KernelIdeal Cert.KernelIdeal.Gen Idealize.ShloMosaic Idealize.ShloMosaic.TcCoe Idealize.ShloMosaic.ValueIdx

/-- The block product's dimension record: rows × contraction times contraction × columns. -/
abbrev blockDot : DotDims S10000x128 S128x128 S10000x128 := dot_S10000x128_S128x128_S10000x128_1_0_0_1_n_n

theorem lhs_row (i : S10000x128.Idx) (r : blockDot.contr.Idx) : (blockDot.lhsIdx i r 0).val = (i 0).val := by
  unfold DotDims.lhsIdx
  rw [dif_neg (show ¬(0 : Fin S10000x128.rank) ∈ blockDot.lhsBatch by decide), dif_pos (show (0 : Fin S10000x128.rank) ∈ blockDot.lhsNonContracting by decide)]
  rfl
theorem lhs_col (i : S10000x128.Idx) (r : blockDot.contr.Idx) : (blockDot.lhsIdx i r 1).val = (r ⟨0, by decide⟩).val :=
  blockDot.lhsIdx_val_of_single rfl i r
theorem rhs_row (i : S10000x128.Idx) (r : blockDot.contr.Idx) : (blockDot.rhsIdx i r 0).val = (r ⟨0, by decide⟩).val :=
  blockDot.rhsIdx_val_of_single rfl i r
theorem rhs_col (i : S10000x128.Idx) (r : blockDot.contr.Idx) : (blockDot.rhsIdx i r 1).val = (i 1).val := by
  unfold DotDims.rhsIdx
  rw [dif_neg (show ¬(1 : Fin S128x128.rank) ∈ blockDot.rhsBatch by decide), dif_pos (show (1 : Fin S128x128.rank) ∈ blockDot.rhsNonContracting by decide)]
  rfl

/-- Entry `(p, q)` of a projected block is the sum over the 128 contracted positions of row `p` of the block
    against column `q` of the weights. -/
theorem linear_entry (x : Vec Ideal S10000x128 .f32) (w : Vec Ideal S128x128 .f32) (p : Fin 10000) (q : Fin 128) :
    k0_pay1 (F := Ideal) x w (ix2 p q) = ∑ k : Fin 128, x (ix2 p k) * w (ix2 k q) := by
  unfold k0_pay1
  simp only [matmul]
  rw [Ideal.matmul_constant_zero_apply, ← Equiv.sum_comp (contrEquiv1 blockDot 128 rfl rfl).symm]
  refine Finset.sum_congr rfl fun k _ => ?_
  have hk := contrEquiv1_symm_val blockDot 128 rfl rfl k
  have el : blockDot.lhsIdx (ix2 p q) ((contrEquiv1 blockDot 128 rfl rfl).symm k) = ix2 p k := funext fun a => Fin.ext (by
    match a with
    | ⟨0, _⟩ => exact lhs_row _ _
    | ⟨1, _⟩ => exact (lhs_col _ _).trans hk)
  have er : blockDot.rhsIdx (ix2 p q) ((contrEquiv1 blockDot 128 rfl rfl).symm k) = ix2 k q := funext fun a => Fin.ext (by
    match a with
    | ⟨0, _⟩ => exact (rhs_row _ _).trans hk
    | ⟨1, _⟩ => exact rhs_col _ _)
  rw [el, er]

/-- The second layer's projection body is the first layer's: the extra cast is the identity. -/
theorem linear2_eq (x : Vec Ideal S10000x128 .f32) (w : Vec Ideal S128x128 .f32) :
    k2_pay1 (F := Ideal) x w = k0_pay1 (F := Ideal) x w := by
  unfold k2_pay1 k0_pay1
  simp only [shapeCast_self]

/-- Entry `(p, q)` of an epilogue block. -/
theorem epilogue_entry (n : Vec Ideal S10000x1 .f32) (h a : Vec Ideal S10000x128 .f32) (b : Vec Ideal S1x128 .f32)
    (p : Fin 10000) (q : Fin 128) :
    k1_pay1 (F := Ideal) n h a b (ix2 p q)
      = max (a (ix2 p q) + h (ix2 p q) * (n (ix2 p 0) * n (ix2 p 0)) + b (ix2 0 q)) (Ideal.ofBits .f32 0x00000000#32) := by
  unfold k1_pay1
  simp only [shapeCast_self]
  rw [maximumf_apply, addf_apply, addf_apply, mulf_apply, broadcast_apply,
    broadcastTo_apply _ broadcasts_S10000x1_S10000x128 (ix2 p q) (ix2 p 0) (fun a => by
      match a with
      | ⟨0, _⟩ => show p.val = if (10000 : Nat) = 1 then 0 else p.val; rw [if_neg (by decide)]
      | ⟨1, _⟩ => show (0 : Nat) = if (1 : Nat) = 1 then 0 else q.val; rw [if_pos rfl]),
    broadcastTo_apply _ broadcasts_S1x128_S10000x128 (ix2 p q) (ix2 0 q) (fun a => by
      match a with
      | ⟨0, _⟩ => show (0 : Nat) = if (1 : Nat) = 1 then 0 else p.val; rw [if_pos rfl]
      | ⟨1, _⟩ => show q.val = if (128 : Nat) = 1 then 0 else q.val; rw [if_neg (by decide)]),
    mulf_apply]
  rfl

/-- The second layer's epilogue body is the first layer's, word for word. -/
theorem epilogue2_eq (n : Vec Ideal S10000x1 .f32) (h a : Vec Ideal S10000x128 .f32) (b : Vec Ideal S1x128 .f32) :
    k3_pay1 (F := Ideal) n h a b = k1_pay1 (F := Ideal) n h a b := rfl

end Cert.KernelIdeal.Entry

end
-- ==== Proof.Blocks.lean ====
import proofs.«150366_j21397527068858_1_alg».proof.Proof.Entry

/-!
# The two whole-array functions, and a grid point's block as a block of them

`rowProduct X W` is the matrix product of the whole 100000 × 128 node array with a 128 × 128 weight matrix;
`combine A H n b` is the whole-array epilogue `max (A + H · (n · n) + b) 0` with the normaliser column `n`
(100000 × 1) repeated along the lanes and the bias row `b` (1 × 128) repeated along the rows.

A grid point sees its operands through embeddings of block coordinates into array coordinates.  Whenever the
operand embeddings agree with the output's embedding in the way the launch's index maps make them agree (same rows
for the row-blocked operands, the whole matrix or row for the resident ones), what the point computes at a block
coordinate is the whole-array function at the embedded coordinate.
-/

noncomputable section

namespace Cert.KernelIdeal.Entry

open Cert.KernelIdeal Cert.KernelIdeal.Gen Idealize.ShloMosaic Idealize.ShloMosaic.TcCoe Idealize.ShloMosaic.ValueIdx

/-- The node array times a weight matrix: entry `(r, c)` is `∑ k, X (r, k) · W (k, c)`. -/
def rowProduct (X : S100000x128.Idx → EReal) (W : S128x128.Idx → EReal) : S100000x128.Idx → EReal :=
  fun i => ∑ k : Fin 128, X (ix2 ⟨(i 0).val, (i 0).isLt⟩ k) * W (ix2 k ⟨(i 1).val, (i 1).isLt⟩)

/-- The epilogue of a layer on whole arrays: entry `(r, c)` is
    `max (A (r, c) + H (r, c) · (n (r, 0) · n (r, 0)) + b (0, c)) 0`. -/
def combine (A H : S100000x128.Idx → EReal) (n : S100000x1.Idx → EReal) (b : S1x128.Idx → EReal) :
    S100000x128.Idx → EReal :=
  fun i => max (A i + H i * (n (ix2 ⟨(i 0).val, (i 0).isLt⟩ 0) * n (ix2 ⟨(i 0).val, (i 0).isLt⟩ 0))
    + b (ix2 0 ⟨(i 1).val, (i 1).isLt⟩)) (Ideal.ofBits .f32 0x00000000#32)

/-- A projection block is a block of `rowProduct`: the row block sits at the output block's rows (`hx`), the
    weights are seen whole (`hw`). -/
theorem rowProduct_block (X : S100000x128.Idx → EReal) (W : S128x128.Idx → EReal)
    (ex eo : S10000x128.Idx → S100000x128.Idx) (ew : S128x128.Idx → S128x128.Idx)
    (hx : ∀ (p : Fin 10000) (k q : Fin 128), ex (ix2 p k) = ix2 ⟨(eo (ix2 p q) 0).val, (eo (ix2 p q) 0).isLt⟩ k)
    (hw : ∀ (k q : Fin 128) (p : Fin 10000), ew (ix2 k q) = ix2 k ⟨(eo (ix2 p q) 1).val, (eo (ix2 p q) 1).isLt⟩)
    (j : S10000x128.Idx) :
    k0_pay1 (F := Ideal) (fun y => X (ex y)) (fun y => W (ew y)) j = rowProduct X W (eo j) := by
  obtain ⟨p, q, rfl⟩ : ∃ (p : Fin 10000) (q : Fin 128), j = ix2 p q := ⟨j 0, j 1, eq_ix2 j⟩
  refine (linear_entry _ _ p q).trans ?_
  unfold rowProduct
  refine Finset.sum_congr rfl fun k _ => ?_
  show X (ex (ix2 p k)) * W (ew (ix2 k q)) = _
  rw [hx p k q, hw k q p]
  rfl

/-- The same for the second layer's projection body. -/
theorem rowProduct_block' (X : S100000x128.Idx → EReal) (W : S128x128.Idx → EReal)
    (ex eo : S10000x128.Idx → S100000x128.Idx) (ew : S128x128.Idx → S128x128.Idx)
    (hx : ∀ (p : Fin 10000) (k q : Fin 128), ex (ix2 p k) = ix2 ⟨(eo (ix2 p q) 0).val, (eo (ix2 p q) 0).isLt⟩ k)
    (hw : ∀ (k q : Fin 128) (p : Fin 10000), ew (ix2 k q) = ix2 k ⟨(eo (ix2 p q) 1).val, (eo (ix2 p q) 1).isLt⟩)
    (j : S10000x128.Idx) :
    k2_pay1 (F := Ideal) (fun y => X (ex y)) (fun y => W (ew y)) j = rowProduct X W (eo j) :=
  (congrFun (linear2_eq _ _) j).trans (rowProduct_block X W ex eo ew hx hw j)

/-- An epilogue block is a block of `combine`: the two row-blocked operands sit where the output block sits
    (`hA`, `hH`), the normaliser column at the output block's rows (`hn`), the bias row is seen whole (`hb`). -/
theorem combine_block (A H : S100000x128.Idx → EReal) (n : S100000x1.Idx → EReal) (b : S1x128.Idx → EReal)
    (eA eH eo : S10000x128.Idx → S100000x128.Idx) (en : S10000x1.Idx → S100000x1.Idx) (eb : S1x128.Idx → S1x128.Idx)
    (hA : ∀ y, eA y = eo y) (hH : ∀ y, eH y = eo y)
    (hn : ∀ (p : Fin 10000) (q : Fin 128), en (ix2 p 0) = ix2 ⟨(eo (ix2 p q) 0).val, (eo (ix2 p q) 0).isLt⟩ 0)
    (hb : ∀ (p : Fin 10000) (q : Fin 128), eb (ix2 0 q) = ix2 0 ⟨(eo (ix2 p q) 1).val, (eo (ix2 p q) 1).isLt⟩)
    (j : S10000x128.Idx) :
    k1_pay1 (F := Ideal) (fun y => n (en y)) (fun y => H (eH y)) (fun y => A (eA y)) (fun y => b (eb y)) j
      = combine A H n b (eo j) := by
  obtain ⟨p, q, rfl⟩ : ∃ (p : Fin 10000) (q : Fin 128), j = ix2 p q := ⟨j 0, j 1, eq_ix2 j⟩
  refine (epilogue_entry _ _ _ _ p q).trans ?_
  unfold combine
  show max (A (eA (ix2 p q)) + H (eH (ix2 p q)) * (n (en (ix2 p 0)) * n (en (ix2 p 0))) + b (eb (ix2 0 q))) _ = _
  rw [hA, hH, hn p q, hb p q]
  rfl

/-- The same for the second layer's epilogue body. -/
theorem combine_block' (A H : S100000x128.Idx → EReal) (n : S100000x1.Idx → EReal) (b : S1x128.Idx → EReal)
    (eA eH eo : S10000x128.Idx → S100000x128.Idx) (en : S10000x1.Idx → S100000x1.Idx) (eb : S1x128.Idx → S1x128.Idx)
    (hA : ∀ y, eA y = eo y) (hH : ∀ y, eH y = eo y)
    (hn : ∀ (p : Fin 10000) (q : Fin 128), en (ix2 p 0) = ix2 ⟨(eo (ix2 p q) 0).val, (eo (ix2 p q) 0).isLt⟩ 0)
    (hb : ∀ (p : Fin 10000) (q : Fin 128), eb (ix2 0 q) = ix2 0 ⟨(eo (ix2 p q) 1).val, (eo (ix2 p q) 1).isLt⟩)
    (j : S10000x128.Idx) :
    k3_pay1 (F := Ideal) (fun y => n (en y)) (fun y => H (eH y)) (fun y => A (eA y)) (fun y => b (eb y)) j
      = combine A H n b (eo j) :=
  combine_block A H n b eA eH eo en eb hA hH hn hb j

end Cert.KernelIdeal.Entry

end
-- ==== Proof.Project1.lean ====
import proofs.«150366_j21397527068858_1_alg».proof.Proof.Gen.KernelIdeal.Frame
import proofs.«150366_j21397527068858_1_alg».proof.Proof.Blocks

/-!
# The first layer's projection launch writes the whole matrix product

The launch has ten grid points.  Point `t` reads rows `10000·t … 10000·t + 9999` of its input array and the whole
weight matrix, and writes back the same rows of its output array.  Whatever the buffers hold when the launch is
entered (the parameter `V`), each written-back block is the corresponding block of `rowProduct` of the input array
and the weights, and the ten blocks cover the output array: after the launch the output array is that product.
-/

set_option maxRecDepth 16384

noncomputable section

namespace Cert.KernelIdeal.Project1

open Cert.KernelIdeal Cert.KernelIdeal.Gen Cert.KernelIdeal.Entry
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero_offset : (![0, 0] : Fin 2 → Nat) = fun _ => 0 := funext fun a => by fin_cases a <;> rfl

/-- The index maps over the ten points: the input rows move with the output rows, the weights stay put. -/
theorem index_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 9 :=
  (by decide +kernel : ∀ t : Fin grid0.N, _)

/-- Every one of the ten row blocks is some point's. -/
theorem index_onto : ∀ (r : Fin 10), ∃ t : Fin cfg0.N, win0_2.index t = ![r.val, 0] :=
  (by decide +kernel : ∀ (r : Fin 10), ∃ t : Fin grid0.N, win0_2.index t = ![r.val, 0])

/-- What point `t` writes back is block `t` of the product of the arrays the launch finds. -/
theorem flushed_eq (c : Dev nD) (t : Fin cfg0.N) :
    (dat0 V c).flushed 2 t
      = ((cfg0.win 2).blk t).view.read (Elt Ideal) (rowProduct (V c main_arg0) (V c main_arg2)) := by
  show (cfg0.win 2).cut (grid0.coords t) ((dat0 V c).after 2 t) = _
  rw [after0_2]
  unfold out0_2
  rw [View.canon_unit_zero zero_offset]
  simp only [View.ld_unit_zero (S := S10000x128) zero_offset, View.ld_unit_zero (S := S128x128) zero_offset]
  obtain ⟨e0, e1, e2, e3, e4, e5⟩ := index_facts t
  funext j
  refine rowProduct_block (V c main_arg0) (V c main_arg2) ((cfg0.win 0).blk t).view.emb ((cfg0.win 2).blk t).view.emb
    ((cfg0.win 1).blk t).view.emb (fun p k q => ?_) (fun k q p => ?_) j
  · funext a; apply Fin.ext
    match a with
    | ⟨0, _⟩ => show win0_0.index t (0 : Fin 2) * 10000 + 1 * p.val = win0_2.index t (0 : Fin 2) * 10000 + 1 * p.val; omega
    | ⟨1, _⟩ => show win0_0.index t (1 : Fin 2) * 128 + 1 * k.val = k.val; omega
  · funext a; apply Fin.ext
    match a with
    | ⟨0, _⟩ => show win0_1.index t (0 : Fin 2) * 128 + 1 * k.val = k.val; omega
    | ⟨1, _⟩ => show win0_1.index t (1 : Fin 2) * 128 + 1 * q.val = win0_2.index t (1 : Fin 2) * 128 + 1 * q.val; omega

/-- An index of the output array is in point `t`'s block iff each coordinate is in the block's range. -/
theorem mem_block (t : Fin cfg0.N) (i : S100000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v11).slice (win0_2.rect t)).set ↔ _
  rw [View.set_slice_whole, Rect.mem_set_unit]
  exact Iff.rfl

/-- Row `r` of the output lies in the block of the point whose block index is `r / 10000`. -/
theorem covered (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := index_onto ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 128 ≤ (i 1).val ∧ (i 1).val < win0_2.index t (1 : Fin 2) * 128 + 128; omega

/-- After the launch its output array is the product of the input array and the weights as the launch found them. -/
theorem array_eq (c : Dev nD) :
    (dat0 V c).arrAt 2 cfg0.N = rowProduct (V c main_arg0) (V c main_arg2) :=
  (dat0 V c).arrAt_eq_of_cover 2 _ (fun t _ => flushed_eq V c t) covered

end Cert.KernelIdeal.Project1

end
-- ==== Proof.Combine1.lean ====
import proofs.«150366_j21397527068858_1_alg».proof.Proof.Gen.KernelIdeal.Frame
import proofs.«150366_j21397527068858_1_alg».proof.Proof.Blocks

/-!
# The first layer's epilogue launch writes the whole-array epilogue

The launch has ten grid points.  Point `t` reads rows `10000·t … 10000·t + 9999` of the aggregated messages, of the
projected features and of the normaliser column, and the whole bias row, and writes back the same rows of its
output array.  Whatever the buffers hold when the launch is entered (the parameter `V`), each written-back block is
the corresponding block of `combine` of the four arrays, and the ten blocks cover the output array: after the
launch the output array is `combine` of them.
-/

set_option maxRecDepth 16384

noncomputable section

namespace Cert.KernelIdeal.Combine1

open Cert.KernelIdeal Cert.KernelIdeal.Gen Cert.KernelIdeal.Entry
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero_offset : (![0, 0] : Fin 2 → Nat) = fun _ => 0 := funext fun a => by fin_cases a <;> rfl

/-- The index maps over the ten points: the three row-blocked operands move with the output rows, the bias row
    stays put. -/
theorem index_facts : ∀ t : Fin cfg1.N, win1_0.index t (0 : Fin 2) = win1_4.index t (0 : Fin 2)
    ∧ win1_0.index t (1 : Fin 2) = 0
    ∧ win1_1.index t (0 : Fin 2) = win1_4.index t (0 : Fin 2)
    ∧ win1_1.index t (1 : Fin 2) = 0
    ∧ win1_2.index t (0 : Fin 2) = win1_4.index t (0 : Fin 2)
    ∧ win1_2.index t (1 : Fin 2) = 0
    ∧ win1_3.index t (0 : Fin 2) = 0
    ∧ win1_3.index t (1 : Fin 2) = 0
    ∧ win1_4.index t (1 : Fin 2) = 0
    ∧ win1_4.index t (0 : Fin 2) ≤ 9 :=
  (by decide +kernel : ∀ t : Fin grid1.N, _)

/-- Every one of the ten row blocks is some point's. -/
theorem index_onto : ∀ (r : Fin 10), ∃ t : Fin cfg1.N, win1_4.index t = ![r.val, 0] :=
  (by decide +kernel : ∀ (r : Fin 10), ∃ t : Fin grid1.N, win1_4.index t = ![r.val, 0])

/-- What point `t` writes back is block `t` of the epilogue of the arrays the launch finds. -/
theorem flushed_eq (c : Dev nD) (t : Fin cfg1.N) :
    (dat1 V c).flushed 4 t
      = ((cfg1.win 4).blk t).view.read (Elt Ideal) (combine (V c main_v39) (V c main_v11) (V c main_v40) (V c main_v41)) := by
  show (cfg1.win 4).cut (grid1.coords t) ((dat1 V c).after 4 t) = _
  rw [after1_4]
  unfold out1_4
  rw [View.canon_unit_zero zero_offset]
  simp only [View.ld_unit_zero (S := S10000x128) zero_offset, View.ld_unit_zero (S := S10000x1) zero_offset,
    View.ld_unit_zero (S := S1x128) zero_offset]
  obtain ⟨e0, e1, e2, e3, e4, e5, e6, e7, e8, e9⟩ := index_facts t
  funext j
  refine combine_block (V c main_v39) (V c main_v11) (V c main_v40) (V c main_v41)
    ((cfg1.win 0).blk t).view.emb ((cfg1.win 1).blk t).view.emb ((cfg1.win 4).blk t).view.emb
    ((cfg1.win 2).blk t).view.emb ((cfg1.win 3).blk t).view.emb
    (fun y => ?_) (fun y => ?_) (fun p q => ?_) (fun p q => ?_) j
  · funext a; apply Fin.ext
    match a with
    | ⟨0, _⟩ => show win1_0.index t (0 : Fin 2) * 10000 + 1 * (y 0).val = win1_4.index t (0 : Fin 2) * 10000 + 1 * (y 0).val; omega
    | ⟨1, _⟩ => show win1_0.index t (1 : Fin 2) * 128 + 1 * (y 1).val = win1_4.index t (1 : Fin 2) * 128 + 1 * (y 1).val; omega
  · funext a; apply Fin.ext
    match a with
    | ⟨0, _⟩ => show win1_1.index t (0 : Fin 2) * 10000 + 1 * (y 0).val = win1_4.index t (0 : Fin 2) * 10000 + 1 * (y 0).val; omega
    | ⟨1, _⟩ => show win1_1.index t (1 : Fin 2) * 128 + 1 * (y 1).val = win1_4.index t (1 : Fin 2) * 128 + 1 * (y 1).val; omega
  · funext a; apply Fin.ext
    match a with
    | ⟨0, _⟩ => show win1_2.index t (0 : Fin 2) * 10000 + 1 * p.val = win1_4.index t (0 : Fin 2) * 10000 + 1 * p.val; omega
    | ⟨1, _⟩ => show win1_2.index t (1 : Fin 2) * 1 + 1 * ((0 : Fin 1) : Nat) = ((0 : Fin 1) : Nat); omega
  · funext a; apply Fin.ext
    match a with
    | ⟨0, _⟩ => show win1_3.index t (0 : Fin 2) * 1 + 1 * ((0 : Fin 1) : Nat) = ((0 : Fin 1) : Nat); omega
    | ⟨1, _⟩ => show win1_3.index t (1 : Fin 2) * 128 + 1 * q.val = win1_4.index t (1 : Fin 2) * 128 + 1 * q.val; omega

/-- An index of the output array is in point `t`'s block iff each coordinate is in the block's range. -/
theorem mem_block (t : Fin cfg1.N) (i : S100000x128.Idx) :
    i ∈ ((cfg1.win 4).blk t).view.set ↔ ∀ a : Fin 2, win1_4.index t a * S10000x128.size a ≤ (i a).val ∧ (i a).val < win1_4.index t a * S10000x128.size a + S10000x128.size a := by
  show i ∈ ((View.whole main_v42).slice (win1_4.rect t)).set ↔ _
  rw [View.set_slice_whole, Rect.mem_set_unit]
  exact Iff.rfl

/-- Row `r` of the output lies in the block of the point whose block index is `r / 10000`. -/
theorem covered (i : S100000x128.Idx) :
    ∃ t : Fin cfg1.N, (cfg1.win 4).flush t = true ∧ i ∈ ((cfg1.win 4).blk t).view.set := by
  have hi0 : (i 0).val < 100000 := (i 0).isLt
  have hi1 : (i 1).val < 128 := (i 1).isLt
  obtain ⟨t, ht⟩ := index_onto ⟨(i 0).val / 10000, by omega⟩
  have q0 : win1_4.index t (0 : Fin 2) = (i 0).val / 10000 := congrFun ht 0
  have q1 : win1_4.index t (1 : Fin 2) = 0 := congrFun ht 1
  refine ⟨t, flush1_4 t, ?_⟩
  rw [mem_block]
  intro a
  match a with
  | ⟨0, _⟩ => show win1_4.index t (0 : Fin 2) * 10000 ≤ (i 0).val ∧ (i 0).val < win1_4.index t (0 : Fin 2) * 10000 + 10000; omega
  | ⟨1, _⟩ => show win1_4.index t (1 : Fin 2) * 128 ≤ (i 1).val ∧ (i 1).val < win1_4.index t (1 : Fin 2) * 128 + 128; omega

/-- After the launch its output array is the epilogue of the four arrays as the launch found them. -/
theorem array_eq (c : Dev nD) :
    (dat1 V c).arrAt 4 cfg1.N = combine (V c main_v39) (V c main_v11) (V c main_v40) (V c main_v41) :=
  (dat1 V c).arrAt_eq_of_cover 4 _ (fun t _ => flushed_eq V c t) covered

end Cert.KernelIdeal.Combine1

end
-- ==== Proof.Project2.lean ====
import proofs.«150366_j21397527068858_1_alg».proof.Proof.Gen.KernelIdeal.Frame
import proofs.«150366_j21397527068858_1_alg».proof.Proof.Blocks

/-!
# The second layer's projection launch writes the whole matrix product

The launch has ten grid points.  Point `t` reads rows `10000·t … 10000·t + 9999` of its input array and the whole
weight matrix, and writes back the same rows of its output array.  Whatever the buffers hold when the launch is
entered (the parameter `V`), each written-back block is the corresponding block of `rowProduct` of the input array
and the weights, and the ten blocks cover the output array: after the launch the output array is that product.
-/

set_option maxRecDepth 16384

noncomputable section

namespace Cert.KernelIdeal.Project2

open Cert.KernelIdeal Cert.KernelIdeal.Gen Cert.KernelIdeal.Entry
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero_offset : (![0, 0] : Fin 2 → Nat) = fun _ => 0 := funext fun a => by fin_cases a <;> rfl

/-- The index maps over the ten points: the input rows move with the output rows, the weights stay put. -/
theorem index_facts : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (1 : Fin 2) = 0
    ∧ win2_2.index t (0 : Fin 2) ≤ 9 :=
  (by decide +kernel : ∀ t : Fin grid2.N, _)

/-- Every one of the ten row blocks is some point's. -/
theorem index_onto : ∀ (r : Fin 10), ∃ t : Fin cfg2.N, win2_2.index t = ![r.val, 0] :=
  (by decide +kernel : ∀ (r : Fin 10), ∃ t : Fin grid2.N, win2_2.index t = ![r.val, 0])

/-- What point `t` writes back is block `t` of the product of the arrays the launch finds. -/
theorem flushed_eq (c : Dev nD) (t : Fin cfg2.N) :
    (dat2 V c).flushed 2 t
      = ((cfg2.win 2).blk t).view.read (Elt Ideal) (rowProduct (V c main_v42) (V c main_arg4)) := by
  show (cfg2.win 2).cut (grid2.coords t) ((dat2 V c).after 2 t) = _
  rw [after2_2]
  unfold out2_2
  rw [View.canon_unit_zero zero_offset]
  simp only [View.ld_unit_zero (S := S10000x128) zero_offset, View.ld_unit_zero (S := S128x128) zero_offset]
  obtain ⟨e0, e1, e2, e3, e4, e5⟩ := index_facts t
  funext j
  refine rowProduct_block' (V c main_v42) (V c main_arg4) ((cfg2.win 0).blk t).view.emb ((cfg2.win 2).blk t).view.emb
    ((cfg2.win 1).blk t).view.emb (fun p k q => ?_) (fun k q p => ?_) j
  · funext a; apply Fin.ext
    match a with
    | ⟨0, _⟩ => show win2_0.index t (0 : Fin 2) * 10000 + 1 * p.val = win2_2.index t (0 : Fin 2) * 10000 + 1 * p.val; omega
    | ⟨1, _⟩ => show win2_0.index t (1 : Fin 2) * 128 + 1 * k.val = k.val; omega
  · funext a; apply Fin.ext
    match a with
    | ⟨0, _⟩ => show win2_1.index t (0 : Fin 2) * 128 + 1 * k.val = k.val; omega
    | ⟨1, _⟩ => show win2_1.index t (1 : Fin 2) * 128 + 1 * q.val = win2_2.index t (1 : Fin 2) * 128 + 1 * q.val; omega

/-- An index of the output array is in point `t`'s block iff each coordinate is in the block's range. -/
theorem mem_block (t : Fin cfg2.N) (i : S100000x128.Idx) :
    i ∈ ((cfg2.win 2).blk t).view.set ↔ ∀ a : Fin 2, win2_2.index t a * S10000x128.size a ≤ (i a).val ∧ (i a).val < win2_2.index t a * S10000x128.size a + S10000x128.size a := by
  show i ∈ ((View.whole main_v43).slice (win2_2.rect t)).set ↔ _
  rw [View.set_slice_whole, Rect.mem_set_unit]
  exact Iff.rfl

/-- Row `r` of the output lies in the block of the point whose block index is `r / 10000`. -/
theorem covered (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  obtain ⟨t, ht⟩ := index_onto ⟨(i 0).val / 10000, by omega⟩
  have q0 : win2_2.index t (0 : Fin 2) = (i 0).val / 10000 := congrFun ht 0
  have q1 : win2_2.index t (1 : Fin 2) = 0 := congrFun ht 1
  refine ⟨t, flush2_2 t, ?_⟩
  rw [mem_block]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 128 ≤ (i 1).val ∧ (i 1).val < win2_2.index t (1 : Fin 2) * 128 + 128; omega

/-- After the launch its output array is the product of the input array and the weights as the launch found them. -/
theorem array_eq (c : Dev nD) :
    (dat2 V c).arrAt 2 cfg2.N = rowProduct (V c main_v42) (V c main_arg4) :=
  (dat2 V c).arrAt_eq_of_cover 2 _ (fun t _ => flushed_eq V c t) covered

end Cert.KernelIdeal.Project2

end
-- ==== Proof.Combine2.lean ====
import proofs.«150366_j21397527068858_1_alg».proof.Proof.Gen.KernelIdeal.Frame
import proofs.«150366_j21397527068858_1_alg».proof.Proof.Blocks

/-!
# The second layer's epilogue launch writes the whole-array epilogue

The launch has ten grid points.  Point `t` reads rows `10000·t … 10000·t + 9999` of the aggregated messages, of the
projected features and of the normaliser column, and the whole bias row, and writes back the same rows of its
output array.  Whatever the buffers hold when the launch is entered (the parameter `V`), each written-back block is
the corresponding block of `combine` of the four arrays, and the ten blocks cover the output array: after the
launch the output array is `combine` of them.
-/

set_option maxRecDepth 16384

noncomputable section

namespace Cert.KernelIdeal.Combine2

open Cert.KernelIdeal Cert.KernelIdeal.Gen Cert.KernelIdeal.Entry
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero_offset : (![0, 0] : Fin 2 → Nat) = fun _ => 0 := funext fun a => by fin_cases a <;> rfl

/-- The index maps over the ten points: the three row-blocked operands move with the output rows, the bias row
    stays put. -/
theorem index_facts : ∀ t : Fin cfg3.N, win3_0.index t (0 : Fin 2) = win3_4.index t (0 : Fin 2)
    ∧ win3_0.index t (1 : Fin 2) = 0
    ∧ win3_1.index t (0 : Fin 2) = win3_4.index t (0 : Fin 2)
    ∧ win3_1.index t (1 : Fin 2) = 0
    ∧ win3_2.index t (0 : Fin 2) = win3_4.index t (0 : Fin 2)
    ∧ win3_2.index t (1 : Fin 2) = 0
    ∧ win3_3.index t (0 : Fin 2) = 0
    ∧ win3_3.index t (1 : Fin 2) = 0
    ∧ win3_4.index t (1 : Fin 2) = 0
    ∧ win3_4.index t (0 : Fin 2) ≤ 9 :=
  (by decide +kernel : ∀ t : Fin grid3.N, _)

/-- Every one of the ten row blocks is some point's. -/
theorem index_onto : ∀ (r : Fin 10), ∃ t : Fin cfg3.N, win3_4.index t = ![r.val, 0] :=
  (by decide +kernel : ∀ (r : Fin 10), ∃ t : Fin grid3.N, win3_4.index t = ![r.val, 0])

/-- What point `t` writes back is block `t` of the epilogue of the arrays the launch finds. -/
theorem flushed_eq (c : Dev nD) (t : Fin cfg3.N) :
    (dat3 V c).flushed 4 t
      = ((cfg3.win 4).blk t).view.read (Elt Ideal) (combine (V c main_v71) (V c main_v43) (V c main_v72) (V c main_v73)) := by
  show (cfg3.win 4).cut (grid3.coords t) ((dat3 V c).after 4 t) = _
  rw [after3_4]
  unfold out3_4
  rw [View.canon_unit_zero zero_offset]
  simp only [View.ld_unit_zero (S := S10000x128) zero_offset, View.ld_unit_zero (S := S10000x1) zero_offset,
    View.ld_unit_zero (S := S1x128) zero_offset]
  obtain ⟨e0, e1, e2, e3, e4, e5, e6, e7, e8, e9⟩ := index_facts t
  funext j
  refine combine_block' (V c main_v71) (V c main_v43) (V c main_v72) (V c main_v73)
    ((cfg3.win 0).blk t).view.emb ((cfg3.win 1).blk t).view.emb ((cfg3.win 4).blk t).view.emb
    ((cfg3.win 2).blk t).view.emb ((cfg3.win 3).blk t).view.emb
    (fun y => ?_) (fun y => ?_) (fun p q => ?_) (fun p q => ?_) j
  · funext a; apply Fin.ext
    match a with
    | ⟨0, _⟩ => show win3_0.index t (0 : Fin 2) * 10000 + 1 * (y 0).val = win3_4.index t (0 : Fin 2) * 10000 + 1 * (y 0).val; omega
    | ⟨1, _⟩ => show win3_0.index t (1 : Fin 2) * 128 + 1 * (y 1).val = win3_4.index t (1 : Fin 2) * 128 + 1 * (y 1).val; omega
  · funext a; apply Fin.ext
    match a with
    | ⟨0, _⟩ => show win3_1.index t (0 : Fin 2) * 10000 + 1 * (y 0).val = win3_4.index t (0 : Fin 2) * 10000 + 1 * (y 0).val; omega
    | ⟨1, _⟩ => show win3_1.index t (1 : Fin 2) * 128 + 1 * (y 1).val = win3_4.index t (1 : Fin 2) * 128 + 1 * (y 1).val; omega
  · funext a; apply Fin.ext
    match a with
    | ⟨0, _⟩ => show win3_2.index t (0 : Fin 2) * 10000 + 1 * p.val = win3_4.index t (0 : Fin 2) * 10000 + 1 * p.val; omega
    | ⟨1, _⟩ => show win3_2.index t (1 : Fin 2) * 1 + 1 * ((0 : Fin 1) : Nat) = ((0 : Fin 1) : Nat); omega
  · funext a; apply Fin.ext
    match a with
    | ⟨0, _⟩ => show win3_3.index t (0 : Fin 2) * 1 + 1 * ((0 : Fin 1) : Nat) = ((0 : Fin 1) : Nat); omega
    | ⟨1, _⟩ => show win3_3.index t (1 : Fin 2) * 128 + 1 * q.val = win3_4.index t (1 : Fin 2) * 128 + 1 * q.val; omega

/-- An index of the output array is in point `t`'s block iff each coordinate is in the block's range. -/
theorem mem_block (t : Fin cfg3.N) (i : S100000x128.Idx) :
    i ∈ ((cfg3.win 4).blk t).view.set ↔ ∀ a : Fin 2, win3_4.index t a * S10000x128.size a ≤ (i a).val ∧ (i a).val < win3_4.index t a * S10000x128.size a + S10000x128.size a := by
  show i ∈ ((View.whole main_v74).slice (win3_4.rect t)).set ↔ _
  rw [View.set_slice_whole, Rect.mem_set_unit]
  exact Iff.rfl

/-- Row `r` of the output lies in the block of the point whose block index is `r / 10000`. -/
theorem covered (i : S100000x128.Idx) :
    ∃ t : Fin cfg3.N, (cfg3.win 4).flush t = true ∧ i ∈ ((cfg3.win 4).blk t).view.set := by
  have hi0 : (i 0).val < 100000 := (i 0).isLt
  have hi1 : (i 1).val < 128 := (i 1).isLt
  obtain ⟨t, ht⟩ := index_onto ⟨(i 0).val / 10000, by omega⟩
  have q0 : win3_4.index t (0 : Fin 2) = (i 0).val / 10000 := congrFun ht 0
  have q1 : win3_4.index t (1 : Fin 2) = 0 := congrFun ht 1
  refine ⟨t, flush3_4 t, ?_⟩
  rw [mem_block]
  intro a
  match a with
  | ⟨0, _⟩ => show win3_4.index t (0 : Fin 2) * 10000 ≤ (i 0).val ∧ (i 0).val < win3_4.index t (0 : Fin 2) * 10000 + 10000; omega
  | ⟨1, _⟩ => show win3_4.index t (1 : Fin 2) * 128 ≤ (i 1).val ∧ (i 1).val < win3_4.index t (1 : Fin 2) * 128 + 128; omega

/-- After the launch its output array is the epilogue of the four arrays as the launch found them. -/
theorem array_eq (c : Dev nD) :
    (dat3 V c).arrAt 4 cfg3.N = combine (V c main_v71) (V c main_v43) (V c main_v72) (V c main_v73) :=
  (dat3 V c).arrAt_eq_of_cover 4 _ (fun t _ => flushed_eq V c t) covered

end Cert.KernelIdeal.Combine2

end
-- ==== Proof.Stretches.lean ====
import proofs.«150366_j21397527068858_1_alg».proof.Proof.Gen.KernelIdeal.Launch
import Idealize.ShloMosaic.Lib.StableHlo.Run
import Idealize.ShloMosaic.PureOps.Ideal

/-!
# The host operations between the launches, as functions

The host side of the program works on the edge list.  From the 2 × 1600000 integer array of edges it takes the row of
source nodes and the row of target nodes; the normaliser of a node is `rsqrt (1 + number of edges into it)`, computed
by a scatter-add of ones over the targets.  Per layer, with `H` the projected features, the aggregated messages are
the scatter-add over the targets of `H[source] · (normaliser[source] · normaliser[target])`, a negative node
index counting from the end (it has 100000 added).  The scatter-add, the gathers and the reciprocal square
root are the host's own operations and are never opened here: both programs apply the same ones.

Each stretch of host operations, run from ANY contents `B` of the buffers, leaves in the buffers it writes these
functions of what `B` held in the buffers it reads, and leaves every other buffer alone.
-/

set_option maxRecDepth 16384

noncomputable section

namespace Cert.KernelIdeal.Graph

open Cert.KernelIdeal Cert.KernelIdeal.Gen Idealize.ShloMosaic Idealize.ShloMosaic.TcCoe Idealize.ShloMosaic.StableHlo

abbrev Edges := (⟨S2x1600000, .i32⟩ : BufTy).Contents (Elt Ideal)
abbrev EdgeEnds := (⟨S1600000, .i32⟩ : BufTy).Contents (Elt Ideal)
abbrev NodeVec := (⟨S100000, .f32⟩ : BufTy).Contents (Elt Ideal)
abbrev NodeMat := (⟨S100000x128, .f32⟩ : BufTy).Contents (Elt Ideal)
abbrev Weights := (⟨S128x128, .f32⟩ : BufTy).Contents (Elt Ideal)
abbrev Bias := (⟨S128, .f32⟩ : BufTy).Contents (Elt Ideal)

/-- The source node of every edge: row 0 of the edge list. -/
def sources (E : Edges) : EdgeEnds :=
  shapeCast _ (extractStridedSlice S1x1600000 ![0, 0] E slices_S2x1600000_S1x1600000_0_0) shapeCasts_S1x1600000_S1600000

/-- The target node of every edge: row 1 of the edge list. -/
def targets (E : Edges) : EdgeEnds :=
  shapeCast _ (extractStridedSlice S1x1600000 ![1, 0] E slices_S2x1600000_S1x1600000_1_0) shapeCasts_S1x1600000_S1600000

/-- A node's normaliser: the reciprocal square root of one plus the number of edges that end in it. -/
def normaliser (d : EdgeEnds) : NodeVec :=
  Host.rsqrt (addf
    (Host.scatterAdd scatter_S100000_S1600000x1_S1600000_n_0_0_1
      (broadcastInDim S100000 ![] bcast_S_S100000 (constant (F := Ideal) S_ .f32 0x00000000#32))
      (broadcastInDim S1600000x1 ![0] bcast_S1600000_S1600000x1_0 d)
      (broadcastInDim S1600000 ![] bcast_S_S1600000 (constant (F := Ideal) S_ .f32 0x3F800000#32)))
    (broadcastInDim S100000 ![] bcast_S_S100000 (constant (F := Ideal) S_ .f32 0x3F800000#32)))

/-- Node indices with the negative ones counted from the end: a negative index has 100000 added. -/
def wrapped (v : EdgeEnds) : EdgeEnds :=
  select (cmpi .slt v (broadcastInDim S1600000 ![] bcast_S_S1600000 (constantI S_ 32 0#32)))
    (addi v (broadcastInDim S1600000 ![] bcast_S_S1600000 (constantI S_ 32 100000#32))) v

/-- The aggregated messages of a layer: over the targets, the sum of the source's projected features scaled by the
    two ends' normalisers. -/
def aggregate (s d : EdgeEnds) (n : NodeVec) (H : NodeMat) : NodeMat :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 d)
    (mulf
      (Host.gather gather_S100000x128_S1600000x1_S1600000x128_1_0_n_n_0_1_1128 H
        (broadcastInDim S1600000x1 ![0] bcast_S1600000_S1600000x1_0 (wrapped s)))
      (broadcastInDim S1600000x128 ![0, 1] bcast_S1600000x1_S1600000x128_0_1
        (broadcastInDim S1600000x1 ![0] bcast_S1600000_S1600000x1_0
          (mulf
            (Host.gather gather_S100000_S1600000x1_S1600000_n_0_n_n_0_1_1 n
              (broadcastInDim S1600000x1 ![0] bcast_S1600000_S1600000x1_0 (wrapped s)))
            (Host.gather gather_S100000_S1600000x1_S1600000_n_0_n_n_0_1_1 n
              (broadcastInDim S1600000x1 ![0] bcast_S1600000_S1600000x1_0 (wrapped d)))))))

/-- The normaliser as the 100000 × 1 column the epilogue launch reads. -/
def column (n : NodeVec) : (⟨S100000x1, .f32⟩ : BufTy).Contents (Elt Ideal) := shapeCast _ n shapeCasts_S100000_S100000x1

/-- The bias as the 1 × 128 row the epilogue launch reads. -/
def biasRow (b : Bias) : (⟨S1x128, .f32⟩ : BufTy).Contents (Elt Ideal) := shapeCast _ b shapeCasts_S128_S1x128

variable (B : Valuation τ sig (Elt Ideal))

/-! ## The first stretch: the ends of the edges and the normaliser -/

theorem first_sources : after hostOps0 B (Proc.devRef .tc main_v1) = sources (B (Proc.devRef .tc main_arg1)) := by
  after_results; rfl
theorem first_targets : after hostOps0 B (Proc.devRef .tc main_v3) = targets (B (Proc.devRef .tc main_arg1)) := by
  after_results; rfl
theorem first_normaliser :
    after hostOps0 B (Proc.devRef .tc main_v10) = normaliser (targets (B (Proc.devRef .tc main_arg1))) := by
  after_results; rfl
theorem first_keeps_arg0 : after hostOps0 B (Proc.devRef .tc main_arg0) = B (Proc.devRef .tc main_arg0) := by after_results
theorem first_keeps_arg2 : after hostOps0 B (Proc.devRef .tc main_arg2) = B (Proc.devRef .tc main_arg2) := by after_results
theorem first_keeps_arg3 : after hostOps0 B (Proc.devRef .tc main_arg3) = B (Proc.devRef .tc main_arg3) := by after_results
theorem first_keeps_arg4 : after hostOps0 B (Proc.devRef .tc main_arg4) = B (Proc.devRef .tc main_arg4) := by after_results
theorem first_keeps_arg5 : after hostOps0 B (Proc.devRef .tc main_arg5) = B (Proc.devRef .tc main_arg5) := by after_results

/-! ## The second stretch: the first layer's messages, the normaliser column, the first bias row -/

set_option maxHeartbeats 4000000 in
theorem second_aggregate :
    after hostOps1 B (Proc.devRef .tc main_v39)
      = aggregate (B (Proc.devRef .tc main_v1)) (B (Proc.devRef .tc main_v3)) (B (Proc.devRef .tc main_v10))
          (B (Proc.devRef .tc main_v11)) := by
  after_results_simp; rfl
theorem second_column : after hostOps1 B (Proc.devRef .tc main_v40) = column (B (Proc.devRef .tc main_v10)) := by
  after_results; rfl
theorem second_biasRow : after hostOps1 B (Proc.devRef .tc main_v41) = biasRow (B (Proc.devRef .tc main_arg3)) := by
  after_results; rfl
theorem second_keeps_v11 : after hostOps1 B (Proc.devRef .tc main_v11) = B (Proc.devRef .tc main_v11) := by after_results
theorem second_keeps_v1 : after hostOps1 B (Proc.devRef .tc main_v1) = B (Proc.devRef .tc main_v1) := by after_results
theorem second_keeps_v3 : after hostOps1 B (Proc.devRef .tc main_v3) = B (Proc.devRef .tc main_v3) := by after_results
theorem second_keeps_v10 : after hostOps1 B (Proc.devRef .tc main_v10) = B (Proc.devRef .tc main_v10) := by after_results
theorem second_keeps_arg4 : after hostOps1 B (Proc.devRef .tc main_arg4) = B (Proc.devRef .tc main_arg4) := by after_results
theorem second_keeps_arg5 : after hostOps1 B (Proc.devRef .tc main_arg5) = B (Proc.devRef .tc main_arg5) := by after_results

/-! ## The third stretch: the second layer's messages, the normaliser column again, the second bias row -/

set_option maxHeartbeats 4000000 in
theorem third_aggregate :
    after hostOps3 B (Proc.devRef .tc main_v71)
      = aggregate (B (Proc.devRef .tc main_v1)) (B (Proc.devRef .tc main_v3)) (B (Proc.devRef .tc main_v10))
          (B (Proc.devRef .tc main_v43)) := by
  after_results_simp; rfl
theorem third_column : after hostOps3 B (Proc.devRef .tc main_v72) = column (B (Proc.devRef .tc main_v10)) := by
  after_results; rfl
theorem third_biasRow : after hostOps3 B (Proc.devRef .tc main_v73) = biasRow (B (Proc.devRef .tc main_arg5)) := by
  after_results; rfl
theorem third_keeps_v43 : after hostOps3 B (Proc.devRef .tc main_v43) = B (Proc.devRef .tc main_v43) := by after_results

end Cert.KernelIdeal.Graph

end
-- ==== Proof.Network.lean ====
import proofs.«150366_j21397527068858_1_alg».proof.Proof.Blocks
import proofs.«150366_j21397527068858_1_alg».proof.Proof.Stretches

/-!
# The network both programs compute

One layer on whole arrays is
`layer s d n X W b = combine (aggregate s d n (X·W)) (X·W) (column n) (biasRow b)`:
project the node features, aggregate the projected features over the edges (sources `s`, targets `d`, normaliser
`n`), add the self term `(X·W) · n²` and the bias, clamp at zero.  The network is two layers over the same edges.
-/

noncomputable section

namespace Cert.KernelIdeal.Walk

open Cert.KernelIdeal Cert.KernelIdeal.Entry Cert.KernelIdeal.Graph Idealize.ShloMosaic

/-- One layer on whole arrays: project, aggregate over the edges, add the self term and the bias, clamp at zero. -/
def layer (s d : EdgeEnds) (n : NodeVec) (X : NodeMat) (W : Weights) (b : Bias) : NodeMat :=
  combine (aggregate s d n (rowProduct X W)) (rowProduct X W) (column n) (biasRow b)

/-- The whole network: two layers over the same edges. -/
def network (E : Edges) (X : NodeMat) (W₁ : Weights) (b₁ : Bias) (W₂ : Weights) (b₂ : Bias) : NodeMat :=
  layer (sources E) (targets E) (normaliser (targets E))
    (layer (sources E) (targets E) (normaliser (targets E)) X W₁ b₁) W₂ b₂

end Cert.KernelIdeal.Walk

end
-- ==== Proof.Walk.lean ====
import proofs.«150366_j21397527068858_1_alg».proof.Proof.Gen.KernelIdeal.Frame
import proofs.«150366_j21397527068858_1_alg».proof.Proof.Project1
import proofs.«150366_j21397527068858_1_alg».proof.Proof.Combine1
import proofs.«150366_j21397527068858_1_alg».proof.Proof.Project2
import proofs.«150366_j21397527068858_1_alg».proof.Proof.Combine2
import proofs.«150366_j21397527068858_1_alg».proof.Proof.Stretches
import proofs.«150366_j21397527068858_1_alg».proof.Proof.Network

/-!
# The kernel program's result as a function of its arguments

Walking through the program's segments from the launch memory — the
first stretch of host operations, the projection launch, the second stretch, the epilogue launch, the second
projection launch, the third stretch, the second epilogue launch — the result buffer ends holding two layers
applied to the node features, over the edge list's sources, targets and normaliser.
-/

set_option maxRecDepth 16384

noncomputable section

namespace Cert.KernelIdeal.Walk

open Cert.KernelIdeal Cert.KernelIdeal.Gen Cert.KernelIdeal.Entry Cert.KernelIdeal.Graph
open Idealize.ShloMosaic Idealize.ShloMosaic.TcCoe Idealize.SL.Sem

variable (m : (ℓ : Loc nD τ sig) → Buf (Elt Ideal) ℓ) (ρ : Dev nD → PrngReg) (c : Dev nD)

/-! ## After the first stretch -/

theorem s1_arg0 : W1 m ρ c (Proc.devRef .tc main_arg0) = m ((c : Thread nD τ).loc main_arg0) := first_keeps_arg0 (W0 m ρ c)
theorem s1_arg2 : W1 m ρ c (Proc.devRef .tc main_arg2) = m ((c : Thread nD τ).loc main_arg2) := first_keeps_arg2 (W0 m ρ c)
theorem s1_arg3 : W1 m ρ c (Proc.devRef .tc main_arg3) = m ((c : Thread nD τ).loc main_arg3) := first_keeps_arg3 (W0 m ρ c)
theorem s1_arg4 : W1 m ρ c (Proc.devRef .tc main_arg4) = m ((c : Thread nD τ).loc main_arg4) := first_keeps_arg4 (W0 m ρ c)
theorem s1_arg5 : W1 m ρ c (Proc.devRef .tc main_arg5) = m ((c : Thread nD τ).loc main_arg5) := first_keeps_arg5 (W0 m ρ c)
theorem s1_sources : W1 m ρ c (Proc.devRef .tc main_v1) = sources (m ((c : Thread nD τ).loc main_arg1)) := first_sources (W0 m ρ c)
theorem s1_targets : W1 m ρ c (Proc.devRef .tc main_v3) = targets (m ((c : Thread nD τ).loc main_arg1)) := first_targets (W0 m ρ c)
theorem s1_normaliser : W1 m ρ c (Proc.devRef .tc main_v10) = normaliser (targets (m ((c : Thread nD τ).loc main_arg1))) :=
  first_normaliser (W0 m ρ c)

/-! ## After the first projection launch -/

theorem s2_projected : W2 m ρ c (Proc.devRef .tc main_v11) = rowProduct (m ((c : Thread nD τ).loc main_arg0)) (m ((c : Thread nD τ).loc main_arg2)) :=
  (W2_arr m ρ c 2).trans ((Project1.array_eq (V1 m ρ) c).trans
    (congrArg₂ rowProduct (s1_arg0 m ρ c) (s1_arg2 m ρ c)))
theorem s2_sources : W2 m ρ c (Proc.devRef .tc main_v1) = sources (m ((c : Thread nD τ).loc main_arg1)) :=
  (W2_of_ne m ρ c main_v1 (by decide)).trans (s1_sources m ρ c)
theorem s2_targets : W2 m ρ c (Proc.devRef .tc main_v3) = targets (m ((c : Thread nD τ).loc main_arg1)) :=
  (W2_of_ne m ρ c main_v3 (by decide)).trans (s1_targets m ρ c)
theorem s2_normaliser : W2 m ρ c (Proc.devRef .tc main_v10) = normaliser (targets (m ((c : Thread nD τ).loc main_arg1))) :=
  (W2_of_ne m ρ c main_v10 (by decide)).trans (s1_normaliser m ρ c)
theorem s2_arg3 : W2 m ρ c (Proc.devRef .tc main_arg3) = m ((c : Thread nD τ).loc main_arg3) :=
  (W2_of_ne m ρ c main_arg3 (by decide)).trans (s1_arg3 m ρ c)
theorem s2_arg4 : W2 m ρ c (Proc.devRef .tc main_arg4) = m ((c : Thread nD τ).loc main_arg4) :=
  (W2_of_ne m ρ c main_arg4 (by decide)).trans (s1_arg4 m ρ c)
theorem s2_arg5 : W2 m ρ c (Proc.devRef .tc main_arg5) = m ((c : Thread nD τ).loc main_arg5) :=
  (W2_of_ne m ρ c main_arg5 (by decide)).trans (s1_arg5 m ρ c)

/-! ## After the second stretch -/

theorem s3_aggregate : W3 m ρ c (Proc.devRef .tc main_v39)
    = aggregate (sources (m ((c : Thread nD τ).loc main_arg1))) (targets (m ((c : Thread nD τ).loc main_arg1))) (normaliser (targets (m ((c : Thread nD τ).loc main_arg1))))
        (rowProduct (m ((c : Thread nD τ).loc main_arg0)) (m ((c : Thread nD τ).loc main_arg2))) :=
  (second_aggregate (W2 m ρ c)).trans (by rw [s2_sources, s2_targets, s2_normaliser, s2_projected])
theorem s3_projected : W3 m ρ c (Proc.devRef .tc main_v11) = rowProduct (m ((c : Thread nD τ).loc main_arg0)) (m ((c : Thread nD τ).loc main_arg2)) :=
  (second_keeps_v11 (W2 m ρ c)).trans (s2_projected m ρ c)
theorem s3_column : W3 m ρ c (Proc.devRef .tc main_v40) = column (normaliser (targets (m ((c : Thread nD τ).loc main_arg1)))) :=
  (second_column (W2 m ρ c)).trans (by rw [s2_normaliser])
theorem s3_biasRow : W3 m ρ c (Proc.devRef .tc main_v41) = biasRow (m ((c : Thread nD τ).loc main_arg3)) :=
  (second_biasRow (W2 m ρ c)).trans (by rw [s2_arg3])
theorem s3_sources : W3 m ρ c (Proc.devRef .tc main_v1) = sources (m ((c : Thread nD τ).loc main_arg1)) :=
  (second_keeps_v1 (W2 m ρ c)).trans (s2_sources m ρ c)
theorem s3_targets : W3 m ρ c (Proc.devRef .tc main_v3) = targets (m ((c : Thread nD τ).loc main_arg1)) :=
  (second_keeps_v3 (W2 m ρ c)).trans (s2_targets m ρ c)
theorem s3_normaliser : W3 m ρ c (Proc.devRef .tc main_v10) = normaliser (targets (m ((c : Thread nD τ).loc main_arg1))) :=
  (second_keeps_v10 (W2 m ρ c)).trans (s2_normaliser m ρ c)
theorem s3_arg4 : W3 m ρ c (Proc.devRef .tc main_arg4) = m ((c : Thread nD τ).loc main_arg4) :=
  (second_keeps_arg4 (W2 m ρ c)).trans (s2_arg4 m ρ c)
theorem s3_arg5 : W3 m ρ c (Proc.devRef .tc main_arg5) = m ((c : Thread nD τ).loc main_arg5) :=
  (second_keeps_arg5 (W2 m ρ c)).trans (s2_arg5 m ρ c)

/-! ## After the first epilogue launch: the first layer -/

theorem s4_layer : W4 m ρ c (Proc.devRef .tc main_v42)
    = layer (sources (m ((c : Thread nD τ).loc main_arg1))) (targets (m ((c : Thread nD τ).loc main_arg1))) (normaliser (targets (m ((c : Thread nD τ).loc main_arg1))))
        (m ((c : Thread nD τ).loc main_arg0)) (m ((c : Thread nD τ).loc main_arg2)) (m ((c : Thread nD τ).loc main_arg3)) :=
  (W4_arr m ρ c 4).trans ((Combine1.array_eq (V3 m ρ) c).trans (by
    show combine (W3 m ρ c (Proc.devRef .tc main_v39)) (W3 m ρ c (Proc.devRef .tc main_v11)) (W3 m ρ c (Proc.devRef .tc main_v40))
      (W3 m ρ c (Proc.devRef .tc main_v41)) = _
    rw [s3_aggregate, s3_projected, s3_column, s3_biasRow]
    rfl))
theorem s4_sources : W4 m ρ c (Proc.devRef .tc main_v1) = sources (m ((c : Thread nD τ).loc main_arg1)) :=
  (W4_of_ne m ρ c main_v1 (by decide)).trans (s3_sources m ρ c)
theorem s4_targets : W4 m ρ c (Proc.devRef .tc main_v3) = targets (m ((c : Thread nD τ).loc main_arg1)) :=
  (W4_of_ne m ρ c main_v3 (by decide)).trans (s3_targets m ρ c)
theorem s4_normaliser : W4 m ρ c (Proc.devRef .tc main_v10) = normaliser (targets (m ((c : Thread nD τ).loc main_arg1))) :=
  (W4_of_ne m ρ c main_v10 (by decide)).trans (s3_normaliser m ρ c)
theorem s4_arg4 : W4 m ρ c (Proc.devRef .tc main_arg4) = m ((c : Thread nD τ).loc main_arg4) :=
  (W4_of_ne m ρ c main_arg4 (by decide)).trans (s3_arg4 m ρ c)
theorem s4_arg5 : W4 m ρ c (Proc.devRef .tc main_arg5) = m ((c : Thread nD τ).loc main_arg5) :=
  (W4_of_ne m ρ c main_arg5 (by decide)).trans (s3_arg5 m ρ c)

/-! ## After the second projection launch -/

theorem s5_projected : W5 m ρ c (Proc.devRef .tc main_v43)
    = rowProduct (layer (sources (m ((c : Thread nD τ).loc main_arg1))) (targets (m ((c : Thread nD τ).loc main_arg1))) (normaliser (targets (m ((c : Thread nD τ).loc main_arg1))))
        (m ((c : Thread nD τ).loc main_arg0)) (m ((c : Thread nD τ).loc main_arg2)) (m ((c : Thread nD τ).loc main_arg3))) (m ((c : Thread nD τ).loc main_arg4)) :=
  (W5_arr m ρ c 2).trans ((Project2.array_eq (V4 m ρ) c).trans
    (congrArg₂ rowProduct (s4_layer m ρ c) (s4_arg4 m ρ c)))
theorem s5_sources : W5 m ρ c (Proc.devRef .tc main_v1) = sources (m ((c : Thread nD τ).loc main_arg1)) :=
  (W5_of_ne m ρ c main_v1 (by decide)).trans (s4_sources m ρ c)
theorem s5_targets : W5 m ρ c (Proc.devRef .tc main_v3) = targets (m ((c : Thread nD τ).loc main_arg1)) :=
  (W5_of_ne m ρ c main_v3 (by decide)).trans (s4_targets m ρ c)
theorem s5_normaliser : W5 m ρ c (Proc.devRef .tc main_v10) = normaliser (targets (m ((c : Thread nD τ).loc main_arg1))) :=
  (W5_of_ne m ρ c main_v10 (by decide)).trans (s4_normaliser m ρ c)
theorem s5_arg5 : W5 m ρ c (Proc.devRef .tc main_arg5) = m ((c : Thread nD τ).loc main_arg5) :=
  (W5_of_ne m ρ c main_arg5 (by decide)).trans (s4_arg5 m ρ c)

/-! ## After the third stretch and the second epilogue launch: the network -/

theorem s7_network : W7 m ρ c (Proc.devRef .tc main_v74)
    = network (m ((c : Thread nD τ).loc main_arg1)) (m ((c : Thread nD τ).loc main_arg0)) (m ((c : Thread nD τ).loc main_arg2)) (m ((c : Thread nD τ).loc main_arg3)) (m ((c : Thread nD τ).loc main_arg4)) (m ((c : Thread nD τ).loc main_arg5)) :=
  (W7_arr m ρ c 4).trans ((Combine2.array_eq (V6 m ρ) c).trans (by
    show combine (W6 m ρ c (Proc.devRef .tc main_v71)) (W6 m ρ c (Proc.devRef .tc main_v43)) (W6 m ρ c (Proc.devRef .tc main_v72))
      (W6 m ρ c (Proc.devRef .tc main_v73)) = _
    rw [show W6 m ρ c (Proc.devRef .tc main_v71) = _ from third_aggregate (W5 m ρ c),
      show W6 m ρ c (Proc.devRef .tc main_v43) = _ from third_keeps_v43 (W5 m ρ c),
      show W6 m ρ c (Proc.devRef .tc main_v72) = _ from third_column (W5 m ρ c),
      show W6 m ρ c (Proc.devRef .tc main_v73) = _ from third_biasRow (W5 m ρ c),
      s5_sources, s5_targets, s5_normaliser, s5_projected, s5_arg5]
    rfl))

end Cert.KernelIdeal.Walk

end
-- ==== Proof.LibColumnCast.lean ====
import Idealize.ShloMosaic.Lib.ValueLayout

/-!
# A vector read as a one-column matrix

A shape cast from `[a]` to `[a, 1]` keeps the row-major order, so entry `(i, 0)` of the column is entry `i` of
the vector.  (The companion of the library's lemmas for a leading unit axis, for a TRAILING one.)
-/

namespace Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Idealize.ShloMosaic.ValueIdx
-- ==== Proof.RefNetwork.lean ====
import proofs.«150366_j21397527068858_1_alg».proof.Proof.Gen.ReferenceIdeal.Read
import proofs.«150366_j21397527068858_1_alg».proof.Proof.Network
import proofs.«150366_j21397527068858_1_alg».proof.Proof.LibColumnCast

/-!
# The reference computes the same network

The reference program is host operations only.  Per layer it forms the matrix product `H = X·W` by one whole
`dot_general`, the aggregated messages by the same scatter-add of gathered rows as the kernel program's host
side, then `max ((A + H · n²) + b) 0` with `n²` computed on the node vector and repeated along the lanes, and
the bias repeated along the rows.  Entry by entry this is `combine A H (column n) (biasRow b)`: the column
`(n·n)` repeated along the lanes reads `n r · n r` at `(r, q)`, the bias row repeated along the rows reads `b q`.
The whole `dot_general` is `rowProduct` entry by entry.  So each layer of the reference is `layer`, and its result
is `network` of its arguments.
-/

set_option maxRecDepth 16384

noncomputable section

namespace Cert.ReferenceIdeal.Net

open Cert.ReferenceIdeal Cert.ReferenceIdeal.Gen Cert.ReferenceIdeal.Read
open Idealize.ShloMosaic Idealize.ShloMosaic.TcCoe Idealize.ShloMosaic.ValueIdx

abbrev Edges := (⟨S2x1600000, .i32⟩ : BufTy).Contents (Elt Ideal)
abbrev EdgeEnds := (⟨S1600000, .i32⟩ : BufTy).Contents (Elt Ideal)
abbrev NodeVec := (⟨S100000, .f32⟩ : BufTy).Contents (Elt Ideal)
abbrev NodeMat := (⟨S100000x128, .f32⟩ : BufTy).Contents (Elt Ideal)
abbrev Weights := (⟨S128x128, .f32⟩ : BufTy).Contents (Elt Ideal)
abbrev Bias := (⟨S128, .f32⟩ : BufTy).Contents (Elt Ideal)

/-- The whole product on the host is the row-by-column sum, entry by entry. -/
theorem product_eq (X : NodeMat) (W : Weights) :
    Host.dotGeneral (F := Ideal) (φ₁ := .f32) (φ₂ := .f32) dot_S100000x128_S128x128_S100000x128_1_0_0_1_n_n none X W = Cert.KernelIdeal.Entry.rowProduct X W := by
  funext i
  refine (val_main_v11_apply X W i).trans ?_
  unfold Cert.KernelIdeal.Entry.rowProduct
  refine Finset.sum_congr rfl fun k _ => ?_
  have el : lidx_main_v11 i k = ix2 ⟨(i 0).val, (i 0).isLt⟩ k := funext fun a => by
    match a with
    | ⟨0, _⟩ => rfl
    | ⟨1, _⟩ => rfl
  have er : ridx_main_v11 i k = ix2 k ⟨(i 1).val, (i 1).isLt⟩ := funext fun a => by
    match a with
    | ⟨0, _⟩ => rfl
    | ⟨1, _⟩ => rfl
  rw [el, er]
  rfl

/-- What the reference does with the aggregated messages `A`, the projected features `H`, the normaliser `n` and
    the bias `b` of a layer. -/
def tail (A H : NodeMat) (n : NodeVec) (b : Bias) : NodeMat :=
  maximumf
    (addf
      (addf A (mulf H (broadcastInDim S100000x128 ![0, 1] bcast_S100000x1_S100000x128_0_1
        (broadcastInDim S100000x1 ![0] bcast_S100000_S100000x1_0 (mulf n n)))))
      (broadcastInDim S100000x128 ![0, 1] bcast_S1x128_S100000x128_0_1 (broadcastInDim S1x128 ![1] bcast_S128_S1x128_1 b)))
    (broadcastInDim S100000x128 ![] bcast_S_S100000x128 (constant (F := Ideal) S_ .f32 0x00000000#32))

/-- Entry by entry, the reference's tail of a layer is the epilogue on whole arrays. -/
theorem tail_eq (A H : NodeMat) (n : NodeVec) (b : Bias) :
    tail A H n b = Cert.KernelIdeal.Entry.combine A H (Cert.KernelIdeal.Graph.column n) (Cert.KernelIdeal.Graph.biasRow b) := by
  funext i
  obtain ⟨r, q, rfl⟩ : ∃ (r : Fin 100000) (q : Fin 128), i = ix2 r q := ⟨i 0, i 1, eq_ix2 i⟩
  have e1 := shapeCast_a_a1_apply n Cert.KernelIdeal.Gen.shapeCasts_S100000_S100000x1 r 0
  have e2 := shapeCast_a_1a_apply b Cert.KernelIdeal.Gen.shapeCasts_S128_S1x128 0 q
  unfold tail
  rw [maximumf_apply, addf_apply, addf_apply, mulf_apply,
    broadcastInDim_apply _ bcast_S100000x1_S100000x128_0_1 _ (ix2 r q) (ix2 r 0) (fun a => match a with
      | ⟨0, _⟩ => by show r.val = if (100000 : Nat) = 1 then 0 else r.val; rw [if_neg (by decide)]
      | ⟨1, _⟩ => by show (0 : Nat) = if (1 : Nat) = 1 then 0 else q.val; rw [if_pos rfl]),
    broadcastInDim_apply _ bcast_S100000_S100000x1_0 _ (ix2 r 0) (ix1 r) (fun a => match a with
      | ⟨0, _⟩ => by show r.val = if (100000 : Nat) = 1 then 0 else r.val; rw [if_neg (by decide)]),
    mulf_apply,
    broadcastInDim_apply _ bcast_S1x128_S100000x128_0_1 _ (ix2 r q) (ix2 0 q) (fun a => match a with
      | ⟨0, _⟩ => by show (0 : Nat) = if (1 : Nat) = 1 then 0 else r.val; rw [if_pos rfl]
      | ⟨1, _⟩ => by show q.val = if (128 : Nat) = 1 then 0 else q.val; rw [if_neg (by decide)]),
    broadcastInDim_apply _ bcast_S128_S1x128_1 _ (ix2 0 q) (ix1 q) (fun a => match a with
      | ⟨0, _⟩ => by show q.val = if (128 : Nat) = 1 then 0 else q.val; rw [if_neg (by decide)]),
    broadcastInDim_apply _ bcast_S_S100000x128 _ (ix2 r q) ix0 (fun a => a.elim0),
    constant_apply, ← e1, ← e2]
  rfl

/-- A layer as the reference spells it: the whole product, the shared aggregation, the tail. -/
def refLayer (s d : EdgeEnds) (n : NodeVec) (X : NodeMat) (W : Weights) (b : Bias) : NodeMat :=
  tail (Cert.KernelIdeal.Graph.aggregate s d n (Host.dotGeneral (F := Ideal) (φ₁ := .f32) (φ₂ := .f32) dot_S100000x128_S128x128_S100000x128_1_0_0_1_n_n none X W)) (Host.dotGeneral (F := Ideal) (φ₁ := .f32) (φ₂ := .f32) dot_S100000x128_S128x128_S100000x128_1_0_0_1_n_n none X W) n b

theorem refLayer_eq (s d : EdgeEnds) (n : NodeVec) (X : NodeMat) (W : Weights) (b : Bias) :
    refLayer s d n X W b = Cert.KernelIdeal.Walk.layer s d n X W b := by
  unfold refLayer Cert.KernelIdeal.Walk.layer
  rw [product_eq, tail_eq]

/-- The reference's first layer, read off its operations. -/
theorem first_layer (X : NodeMat) (E : Edges) (W₁ : Weights) (b₁ : Bias) :
    val_main_v48 (F := Ideal) X E W₁ b₁
      = refLayer (Cert.KernelIdeal.Graph.sources E) (Cert.KernelIdeal.Graph.targets E) (Cert.KernelIdeal.Graph.normaliser (Cert.KernelIdeal.Graph.targets E)) X W₁ b₁ := rfl

/-- The reference's second layer, read off its operations: the same layer applied to the first one's result. -/
theorem second_layer (X : NodeMat) (E : Edges) (W₁ : Weights) (b₁ : Bias) (W₂ : Weights) (b₂ : Bias) :
    val_main_v86 (F := Ideal) X E W₁ b₁ W₂ b₂
      = refLayer (Cert.KernelIdeal.Graph.sources E) (Cert.KernelIdeal.Graph.targets E) (Cert.KernelIdeal.Graph.normaliser (Cert.KernelIdeal.Graph.targets E))
          (val_main_v48 (F := Ideal) X E W₁ b₁) W₂ b₂ := rfl

/-- The reference's result is the network of its arguments. -/
theorem result_eq (X : NodeMat) (E : Edges) (W₁ : Weights) (b₁ : Bias) (W₂ : Weights) (b₂ : Bias) :
    val_main_v86 (F := Ideal) X E W₁ b₁ W₂ b₂ = Cert.KernelIdeal.Walk.network E X W₁ b₁ W₂ b₂ := by
  rw [second_layer, first_layer, refLayer_eq, refLayer_eq]
  rfl

end Cert.ReferenceIdeal.Net

end
-- ==== Proof.lean ====
/-
  The two-layer graph convolution, kernel program against reference.

  Both programs compute, from the node features `x` (100000 × 128), the edge list (2 × 1600000), two weight
  matrices and two biases, the same function of extended reals: with `n = rsqrt (1 + in-degree)`, a layer is
  `max (A + H · n² + b) 0` where `H = X·W` and `A` is the scatter-add over the edges' targets of
  `H[source] · n[source] · n[target]`; the result is two layers.  The kernel program forms `H` and the epilogue
  `max (A + H · n² + b) 0` in launches over ten blocks of 10000 rows and leaves the edge work to host operations;
  the reference does everything on the host.  No algebraic law is needed beyond reading each operation entry by
  entry: a blocked matrix product into a zero accumulator is the whole product, and the blocked epilogue is the
  whole-array one; the edge work is the same host operations in both programs and is never opened.  The
  precondition (finite inputs) is not used.

  * the three frames: the generated frame certificates of the two kernel programs, and the reference's generated run;
  * `preserves`: the idealization rewrote nothing;
  * `algebraic`: the kernel program's run ends with its result buffer at `network` of its arguments
    (KernelRun, Walk), the reference's run at the same function of its arguments (RefNetwork), and the arguments agree.
-/
import proofs.«150366_j21397527068858_1_alg».proof.Defs
import proofs.«150366_j21397527068858_1_alg».proof.Proof.Gen.Kernel
import proofs.«150366_j21397527068858_1_alg».proof.Proof.Gen.Kernel.Frame
import proofs.«150366_j21397527068858_1_alg».proof.Proof.Gen.KernelIdeal
import proofs.«150366_j21397527068858_1_alg».proof.Proof.Gen.KernelIdeal.Frame
import proofs.«150366_j21397527068858_1_alg».proof.Proof.Gen.ReferenceIdeal
import proofs.«150366_j21397527068858_1_alg».proof.Proof.Gen.ReferenceIdeal.Run
import proofs.«150366_j21397527068858_1_alg».proof.Proof.Gen.Pre_finite_inputs
import proofs.«150366_j21397527068858_1_alg».proof.Proof.KernelRun
import proofs.«150366_j21397527068858_1_alg».proof.Proof.Walk
import proofs.«150366_j21397527068858_1_alg».proof.Proof.RefNetwork
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result at the network of the (agreeing) arguments. -/
theorem algebraic : Cert.algebraic_KernelIdeal_ReferenceIdeal := by
  intro m ρ m' ρ' _ hagree
  refine ⟨fun c => Cert.KernelIdeal.Walk.network (m ((c.tc : Thread Cert.KernelIdeal.nD Cert.KernelIdeal.τ).loc Cert.KernelIdeal.main_arg1)) (m ((c.tc : Thread Cert.KernelIdeal.nD Cert.KernelIdeal.τ).loc Cert.KernelIdeal.main_arg0)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Walk.s7_network m ρ c), (h c).2⟩)
      (Cert.KernelIdeal.Whole.run_result m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5⟩ := hagree c
    rw [Cert.ReferenceIdeal.Read.val_main_v86_eq, Cert.ReferenceIdeal.Net.result_eq, h0, h1, h2, h3, h4, h5]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
